-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x8192 : Shape := ⟨3, ![32, 256, 8192]⟩
abbrev S16x256 : Shape := ⟨2, ![16, 256]⟩
abbrev S256x16 : Shape := ⟨2, ![256, 16]⟩
abbrev S_ : Shape := ⟨0, ![]⟩

class Facts : Prop where
  bcast_S_S32x256x8192 : S_.BroadcastsInDim S32x256x8192 (![] : Fin 0 → Fin S32x256x8192.rank)
  reducesTo_S32x256x8192_S_d0_1_2 : S32x256x8192.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x8192 .f32) (main_arg1 : FVec F S16x256 .f32) (main_arg2 : FVec F S256x16 .f32) : IVec S_ 1 :=
  let main_v0 : FVec F S32x256x8192 .f32 := Host.absf main_arg0
  let main_cst : FVec F S_ .f32 := constant S_ .f32 0x7F800000#32
  let main_v1 : FVec F S32x256x8192 .f32 := broadcastInDim S32x256x8192 ![] bcast_S_S32x256x8192 main_cst
  let main_v2 : IVec S32x256x8192 1 := cmpf .olt main_v0 main_v1
  let main_c : IVec S_ 1 := constantI S_ 1 1#1
  let main_v3 : IVec S_ 1 := (fun x v => Host.reduce IntOp.andi x v reducesTo_S32x256x8192_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x8192 : Shape := ⟨3, ![32, 256, 8192]⟩
abbrev S16x256 : Shape := ⟨2, ![16, 256]⟩
abbrev S256x16 : Shape := ⟨2, ![256, 16]⟩
abbrev S1x256x8192 : Shape := ⟨3, ![1, 256, 8192]⟩
abbrev S256x1 : Shape := ⟨2, ![256, 1]⟩
abbrev S1x256x1024 : Shape := ⟨3, ![1, 256, 1024]⟩
abbrev S256x1024 : Shape := ⟨2, ![256, 1024]⟩
abbrev S256 : Shape := ⟨1, ![256]⟩
abbrev S16x1 : Shape := ⟨2, ![16, 1]⟩

abbrev nBuf : Space → Nat
  | .hbm => 4
  | .vmem => 6
  | .smem => 0
  | _ => 0

abbrev bufTy : (tb : Table) → Fin (tcTables nBuf tb) → BufTy
  | .hbm, ⟨0, _⟩ => ⟨S32x256x8192, .f32⟩
  | .hbm, ⟨1, _⟩ => ⟨S16x256, .f32⟩
  | .hbm, ⟨2, _⟩ => ⟨S256x16, .f32⟩
  | .hbm, ⟨3, _⟩ => ⟨S32x256x8192, .f32⟩
  | .local _ .vmem, ⟨0, _⟩ => ⟨S1x256x8192, .f32⟩
  | .local _ .vmem, ⟨1, _⟩ => ⟨S1x256x8192, .f32⟩
  | .local _ .vmem, ⟨2, _⟩ => ⟨S16x256, .f32⟩
  | .local _ .vmem, ⟨3, _⟩ => ⟨S256x16, .f32⟩
  | .local _ .vmem, ⟨4, _⟩ => ⟨S1x256x8192, .f32⟩
  | .local _ .vmem, ⟨5, _⟩ => ⟨S1x256x8192, .f32⟩
  | _, _ => ⟨S32x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 3 → Nat :=
  let c0 : Index := 0#32
  let c0_0 : Index := 0#32
  let c1024_i32 : BitVec 32 := 1024#32
  let v1 : BitVec 32 := Scalar.muli c0_i32 c1024_i32
  let v2 : BitVec 32 := v1
  let v3 : Index := Scalar.indexCast v2
  ![0, 0, v3.toNat]
def k0_mult2 : BitVec 32 :=
  let c1_i32 : BitVec 32 := 1#32
  let c1024_i32_2 : BitVec 32 := 1024#32
  let v9 : BitVec 32 := Scalar.muli c1_i32 c1024_i32_2
  v9
def k0_mult3 : BitVec 32 :=
  let c2_i32 : BitVec 32 := 2#32
  let c1024_i32_6 : BitVec 32 := 1024#32
  let v17 : BitVec 32 := Scalar.muli c2_i32 c1024_i32_6
  v17
def k0_mult4 : BitVec 32 :=
  let c3_i32 : BitVec 32 := 3#32
  let c1024_i32_10 : BitVec 32 := 1024#32
  let v25 : BitVec 32 := Scalar.muli c3_i32 c1024_i32_10
  v25
def k0_mult5 : BitVec 32 :=
  let c4_i32 : BitVec 32 := 4#32
  let c1024_i32_14 : BitVec 32 := 1024#32
  let v33 : BitVec 32 := Scalar.muli c4_i32 c1024_i32_14
  v33
def k0_mult6 : BitVec 32 :=
  let c5_i32 : BitVec 32 := 5#32
  let c1024_i32_18 : BitVec 32 := 1024#32
  let v41 : BitVec 32 := Scalar.muli c5_i32 c1024_i32_18
  v41
def k0_mult7 : BitVec 32 :=
  let c6_i32 : BitVec 32 := 6#32
  let c1024_i32_22 : BitVec 32 := 1024#32
  let v49 : BitVec 32 := Scalar.muli c6_i32 c1024_i32_22
  v49
def k0_mult8 : BitVec 32 :=
  let c7_i32 : BitVec 32 := 7#32
  let c1024_i32_26 : BitVec 32 := 1024#32
  let v57 : BitVec 32 := Scalar.muli c7_i32 c1024_i32_26
  v57
def k0_mult9 : BitVec 32 :=
  let c0_i32_38 : BitVec 32 := 0#32
  let c1024_i32_39 : BitVec 32 := 1024#32
  let v74 : BitVec 32 := Scalar.muli c0_i32_38 c1024_i32_39
  v74
def k0_mult10 : BitVec 32 :=
  let c1_i32_44 : BitVec 32 := 1#32
  let c1024_i32_45 : BitVec 32 := 1024#32
  let v85 : BitVec 32 := Scalar.muli c1_i32_44 c1024_i32_45
  v85
def k0_mult11 : BitVec 32 :=
  let c2_i32_50 : BitVec 32 := 2#32
  let c1024_i32_51 : BitVec 32 := 1024#32
  let v96 : BitVec 32 := Scalar.muli c2_i32_50 c1024_i32_51
  v96
def k0_mult12 : BitVec 32 :=
  let c3_i32_56 : BitVec 32 := 3#32
  let c1024_i32_57 : BitVec 32 := 1024#32
  let v107 : BitVec 32 := Scalar.muli c3_i32_56 c1024_i32_57
  v107
def k0_mult13 : BitVec 32 :=
  let c4_i32_62 : BitVec 32 := 4#32
  let c1024_i32_63 : BitVec 32 := 1024#32
  let v118 : BitVec 32 := Scalar.muli c4_i32_62 c1024_i32_63
  v118
def k0_mult14 : BitVec 32 :=
  let c5_i32_68 : BitVec 32 := 5#32
  let c1024_i32_69 : BitVec 32 := 1024#32
  let v129 : BitVec 32 := Scalar.muli c5_i32_68 c1024_i32_69
  v129
def k0_mult15 : BitVec 32 :=
  let c6_i32_74 : BitVec 32 := 6#32
  let c1024_i32_75 : BitVec 32 := 1024#32
  let v140 : BitVec 32 := Scalar.muli c6_i32_74 c1024_i32_75
  v140
def k0_mult16 : BitVec 32 :=
  let c7_i32_80 : BitVec 32 := 7#32
  let c1024_i32_81 : BitVec 32 := 1024#32
  let v151 : BitVec 32 := Scalar.muli c7_i32_80 c1024_i32_81
  v151
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  broadcasts_S256x1_S256x1024 : S256x1.Broadcasts S256x1024
  shapeCasts_S256x1024_S1x256x1024 : S256x1024.ShapeCasts S1x256x1024
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  hrank0 : 0 < grid0.rank
  k0_mult1_dvd : 1024 ∣ k0_mult1.toNat
  k0_off1_inb : ∀ (r : Fin 8), ∀ a, (k0_off1 (BitVec.ofNat 32 r.val)) a + S1x256x1024.size a ≤ S1x256x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_mult11_dvd : 1024 ∣ k0_mult11.toNat
  k0_mult12_dvd : 1024 ∣ k0_mult12.toNat
  k0_mult13_dvd : 1024 ∣ k0_mult13.toNat
  k0_mult14_dvd : 1024 ∣ k0_mult14.toNat
  k0_mult15_dvd : 1024 ∣ k0_mult15.toNat
  k0_mult16_dvd : 1024 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S32x256x8192.size a
  hwx0_0 : ∀ i : grid0.Coords, EltTy.bits .f32 = 32 ∨ (Rect.block (s := S32x256x8192) S1x256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x8192.size a ≤ S32x256x8192.size a
  hwx0_3 : ∀ i : grid0.Coords, EltTy.bits .f32 = 32 ∨ (Rect.block (s := S32x256x8192) S1x256x8192.size (cc0_transform_3 i) (hinb0_3 i)).WholeWords (EltTy.packing .f32)

variable [Facts₀]

def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_arg0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x8192 : Shape := ⟨3, ![32, 256, 8192]⟩
abbrev S16x256 : Shape := ⟨2, ![16, 256]⟩
abbrev S256x16 : Shape := ⟨2, ![256, 16]⟩
abbrev S_ : Shape := ⟨0, ![]⟩
abbrev S32x256 : Shape := ⟨2, ![32, 256]⟩
abbrev S32x16 : Shape := ⟨2, ![32, 16]⟩
abbrev S32x256x1 : Shape := ⟨3, ![32, 256, 1]⟩

abbrev nBuf : Space → Nat
  | .hbm => 24
  | .vmem => 0
  | .smem => 0
  | _ => 0

abbrev bufTy : (tb : Table) → Fin (tcTables nBuf tb) → BufTy
  | .hbm, ⟨0, _⟩ => ⟨S32x256x8192, .f32⟩
  | .hbm, ⟨1, _⟩ => ⟨S16x256, .f32⟩
  | .hbm, ⟨2, _⟩ => ⟨S256x16, .f32⟩
  | .hbm, ⟨3, _⟩ => ⟨S_, .f32⟩
  | .hbm, ⟨4, _⟩ => ⟨S32x256, .f32⟩
  | .hbm, ⟨5, _⟩ => ⟨S_, .f32⟩
  | .hbm, ⟨6, _⟩ => ⟨S32x256, .f32⟩
  | .hbm, ⟨7, _⟩ => ⟨S32x256, .f32⟩
  | .hbm, ⟨8, _⟩ => ⟨S32x16, .f32⟩
  | .hbm, ⟨9, _⟩ => ⟨S_, .f32⟩
  | .hbm, ⟨10, _⟩ => ⟨S32x16, .f32⟩
  | .hbm, ⟨11, _⟩ => ⟨S32x16, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S_, .f32⟩
  | .hbm, ⟨19, _⟩ => ⟨S32x256, .f32⟩
  | .hbm, ⟨20, _⟩ => ⟨S32x256, .f32⟩
  | .hbm, ⟨21, _⟩ => ⟨S32x256x1, .f32⟩
  | .hbm, ⟨22, _⟩ => ⟨S32x256x8192, .f32⟩
  | .hbm, ⟨23, _⟩ => ⟨S32x256x8192, .f32⟩
  | _, _ => ⟨S32x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S32x256x8192_S32x256_d2 : S32x256x8192.ReducesTo [2] S32x256
  h_S_ : 0 < S_.numel
  bcast_S_S32x256 : S_.BroadcastsInDim S32x256 (![] : Fin 0 → Fin S32x256.rank)
  bcast_S_S32x16 : S_.BroadcastsInDim S32x16 (![] : Fin 0 → Fin S32x16.rank)
  bcast_S32x256_S32x256x1_0_1 : S32x256.BroadcastsInDim S32x256x1 (![0, 1] : Fin 2 → Fin S32x256x1.rank)
  bcast_S32x256x1_S32x256x8192_0_1_2 : S32x256x1.BroadcastsInDim S32x256x8192 (![0, 1, 2] : Fin 3 → Fin S32x256x8192.rank)
  dot_S32x256_S16x256_S32x16_1_1_0_0_n_n_wf : DotDims.WF S32x256 S16x256 S32x16 [1] [1] [0] [0] [] []
  dot_S32x16_S256x16_S32x256_1_1_0_0_n_n_wf : DotDims.WF S32x16 S256x16 S32x256 [1] [1] [0] [0] [] []

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S256x16_S32x256_1_1_0_0_n_n : DotDims S32x16 S256x16 S32x256 where
  lhsContracting := [1]
  rhsContracting := [1]
  lhsNonContracting := [0]
  rhsNonContracting := [0]
  lhsBatch := []
  rhsBatch := []
  wf := dot_S32x16_S256x16_S32x256_1_1_0_0_n_n_wf

class Facts : Prop extends Facts₀ where

variable [Facts]
-- ==== Proof.SeSpec.lean ====
/-
  Squeeze-and-excite over the extended reals, as one function of the argument arrays.

  For a batch element `b` the slab `s c l = x (b, c, l)` has 256 channels of 8192 positions.  The channel mean is
  the row total times 1/8192; a hidden layer `max (w₁ · mean, 0)` of 16 units and an output layer
  `logistic (w₂ · hidden)` turn the 256 means into 256 gates; the result scales every entry of a channel by that
  channel's gate.  Two things are proved here about this function, with no finiteness assumed.  A row total taken
  as eight chunk totals of 1024 consecutive positions added one after the other from zero is the row total: a
  sum over `Fin 8 × Fin 1024` re-indexed along `(j, k) ↦ 1024 j + k`.  And the same gates written the other way —
  the total from a zero start divided by 8192, each product with its factors swapped, the logistic spelt as
  `1 / (1 + exp (−z))` — are the gates: a division by a non-zero real is the product with its reciprocal on every
  extended real, multiplication commutes, and the logistic is that quotient by definition.
-/
import Idealize.ShloMosaic.PureOps.Ideal.Laws
import Idealize.ShloMosaic.Lib.ValueIdx

noncomputable section

open scoped BigOperators

namespace Cert.SE

open Idealize.ShloMosaic Idealize.ShloMosaic.ValueIdx

/-- The whole input: 32 batch elements of 256 channels of 8192 positions. -/
abbrev Arr : Type := (⟨3, ![32, 256, 8192]⟩ : Shape).Idx → EReal
/-- One batch element's block, with its leading unit axis. -/
abbrev Blk : Type := (⟨3, ![1, 256, 8192]⟩ : Shape).Idx → EReal
/-- The first layer's weights, 16 units over 256 channels. -/
abbrev Wa : Type := (⟨2, ![16, 256]⟩ : Shape).Idx → EReal
/-- The second layer's weights, 256 channels over 16 units. -/
abbrev Wb : Type := (⟨2, ![256, 16]⟩ : Shape).Idx → EReal

/-- The reciprocal of the row length. -/
def invLen : EReal := ((1 / 8192 : ℝ) : EReal)

/-- The mean of channel `c` of a slab. -/
def mean (s : Fin 256 → Fin 8192 → EReal) (c : Fin 256) : EReal := (∑ l : Fin 8192, s c l) * invLen

/-- The hidden unit `h`: the rectified product of the first layer's row with the means. -/
def hidden (w1 : Wa) (y : Fin 256 → EReal) (h : Fin 16) : EReal := max (∑ c : Fin 256, w1 (ix2 h c) * y c) 0

/-- The gate of channel `c`: the logistic of the second layer's row with the hidden units. -/
def gate (w2 : Wb) (hd : Fin 16 → EReal) (c : Fin 256) : EReal := Ideal.logistic (∑ h : Fin 16, w2 (ix2 c h) * hd h)

/-- The 256 gates of a slab. -/
def gates (w1 : Wa) (w2 : Wb) (s : Fin 256 → Fin 8192 → EReal) (c : Fin 256) : EReal :=
  gate w2 (hidden w1 (mean s)) c

/-- The result: every entry scaled by the gate of its channel in its batch element. -/
def scaled (x : Arr) (w1 : Wa) (w2 : Wb) : Arr :=
  fun i => x i * gates w1 w2 (fun c l => x (ix3 (i 0) c l)) (i 1)

theorem scaled_apply (x : Arr) (w1 : Wa) (w2 : Wb) (b : Fin 32) (c : Fin 256) (l : Fin 8192) :
    scaled x w1 w2 (ix3 b c l) = x (ix3 b c l) * gates w1 w2 (fun c' l' => x (ix3 b c' l')) c := rfl

/-- The same on one batch element's block. -/
def scaledBlk (x : Blk) (w1 : Wa) (w2 : Wb) : Blk :=
  fun y => x y * gates w1 w2 (fun c l => x (ix3 (0 : Fin 1) c l)) (y 1)

theorem scaledBlk_apply (x : Blk) (w1 : Wa) (w2 : Wb) (u : Fin 1) (c : Fin 256) (l : Fin 8192) :
    scaledBlk x w1 w2 (ix3 u c l) = x (ix3 u c l) * gates w1 w2 (fun c' l' => x (ix3 (0 : Fin 1) c' l')) c := rfl

/-- Batch element `b` of the input, as a block. -/
def slab (x : Arr) (b : Fin 32) : Blk := fun y => x (ix3 b (y 1) (y 2))

/-- The result on the block of batch element `b` is the block of the result. -/
theorem scaledBlk_slab (x : Arr) (w1 : Wa) (w2 : Wb) (b : Fin 32) (y : (⟨3, ![1, 256, 8192]⟩ : Shape).Idx) :
    scaledBlk (slab x b) w1 w2 y = scaled x w1 w2 (ix3 b (y 1) (y 2)) := rfl

/-! ## A row total by chunks -/

/-- The total of chunk `j` of a row: positions `1024 j` to `1024 j + 1023`. -/
def chunk (f : Fin 8192 → EReal) (j : Fin 8) : EReal :=
  ∑ k : Fin 1024, f ⟨1024 * j.val + k.val, by have := j.isLt; have := k.isLt; omega⟩

/-- Eight chunk totals added one after the other from zero are the row total. -/
theorem chunks_total (f : Fin 8192 → EReal) :
    ((((((((0 + chunk f 0) + chunk f 1) + chunk f 2) + chunk f 3) + chunk f 4) + chunk f 5) + chunk f 6) + chunk f 7)
      = ∑ l : Fin 8192, f l := by
  have e : (∑ l : Fin 8192, f l) = ∑ j : Fin 8, chunk f j := by
    refine ((Equiv.sum_comp (finProdFinEquiv (m := 8) (n := 1024)) (fun l : Fin (8 * 1024) => f l)).symm).trans ?_
    rw [Fintype.sum_prod_type]
    refine Finset.sum_congr rfl fun j _ => Finset.sum_congr rfl fun k _ => congrArg f (Fin.ext ?_)
    show k.val + 1024 * j.val = 1024 * j.val + k.val
    omega
  rw [e, Fin.sum_univ_eight, zero_add]

/-! ## The gates written the other way -/

/-- The logistic of a sum whose products have their factors swapped, the hidden units built from means written as
    a quotient of a total from a zero start: the same gate. -/
theorem gates_other (w1 : Wa) (w2 : Wb) (s : Fin 256 → Fin 8192 → EReal) (c : Fin 256) :
    Ideal.div 1 (1 + Ideal.exp (-(∑ h : Fin 16,
        max (∑ c' : Fin 256, Ideal.div (0 + ∑ l : Fin 8192, s c' l) ((8192 : ℝ) : EReal) * w1 (ix2 h c')) 0 * w2 (ix2 c h))))
      = gates w1 w2 s c := by
  unfold gates gate hidden mean invLen
  rw [Ideal.logistic]
  refine congrArg (fun z => Ideal.div 1 (1 + Ideal.exp (-z))) (Finset.sum_congr rfl fun h _ => ?_)
  rw [mul_comm]
  refine congrArg (fun z => w2 (ix2 c h) * max z 0) (Finset.sum_congr rfl fun c' _ => ?_)
  rw [zero_add, Ideal.div_coe (by norm_num : (8192 : ℝ) ≠ 0), mul_comm]

end Cert.SE

end
-- ==== Proof.SeConsts.lean ====
/-
  The float constants the two programs spell, as the extended reals their bit patterns denote: the reference
  divides a row total by the pattern of 8192, the kernel multiplies it by the pattern of 2⁻¹³ = 1/8192, and the
  reference's logistic is written over the pattern of 1.
-/
import Idealize.ShloMosaic.PureOps.Ideal

noncomputable section

namespace Cert.SE.Consts

open Idealize.ShloMosaic

/-- The pattern of `8192.0` denotes the real 8192. -/
theorem ofBits_8192 : Ideal.ofBits .f32 0x46000000#32 = ((8192 : ℝ) : EReal) := by
  simp [Ideal.ofBits, Ideal.ieee, -EReal.coe_mul]; norm_num

/-- The pattern of `1.22070313e-4` denotes exactly 1/8192 (a power of two). -/
theorem ofBits_inv8192 : Ideal.ofBits .f32 0x39000000#32 = ((1 / 8192 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

end Cert.SE.Consts

end
-- ==== Proof.SeRef.lean ====
/-
  The reference's result is the squeeze-and-excite function of its arguments.

  Read one operation at a time at an index `(b, c, l)`, the reference multiplies `x (b, c, l)` by
  `1 / (1 + exp (−z))`, `z` the sum over the 16 hidden units of `max (∑ c', (total (b, c') / 8192) · w₁ (h, c'), 0) · w₂ (c, h)`,
  every total taken from a zero start: the gates written the other way.
-/
import proofs.«123836_j31860067402274_2_alg».proof.Proof.Gen.ReferenceIdeal.Read
import proofs.«123836_j31860067402274_2_alg».proof.Proof.SeSpec
import proofs.«123836_j31860067402274_2_alg».proof.Proof.SeConsts

noncomputable section

open scoped BigOperators

namespace Cert.SE.Ref

open Idealize.ShloMosaic Idealize.ShloMosaic.ValueIdx Cert.ReferenceIdeal Cert.ReferenceIdeal.Read

/-! The index functions of the reference's operations, at indices written by coordinates. -/

theorem idx_gate (b : Fin 32) (c : Fin 256) (l : Fin 8192) : idx_main_v12 (idx_main_v13 (ix3 b c l)) = ix2 b c :=
  funext fun a => Fin.ext (by match a with | ⟨0, _⟩ => rfl | ⟨1, _⟩ => rfl)

theorem lidx_out (b : Fin 32) (c : Fin 256) (h : Fin 16) : lidx_main_v5 (ix2 b c) h = ix2 b h :=
  funext fun a => Fin.ext (by match a with | ⟨0, _⟩ => rfl | ⟨1, _⟩ => rfl)

theorem ridx_out (b : Fin 32) (c : Fin 256) (h : Fin 16) : ridx_main_v5 (ix2 b c) h = ix2 c h :=
  funext fun a => Fin.ext (by match a with | ⟨0, _⟩ => rfl | ⟨1, _⟩ => rfl)

theorem lidx_hid (b : Fin 32) (h : Fin 16) (c : Fin 256) : lidx_main_v3 (ix2 b h) c = ix2 b c :=
  funext fun a => Fin.ext (by match a with | ⟨0, _⟩ => rfl | ⟨1, _⟩ => rfl)

theorem ridx_hid (b : Fin 32) (h : Fin 16) (c : Fin 256) : ridx_main_v3 (ix2 b h) c = ix2 h c :=
  funext fun a => Fin.ext (by match a with | ⟨0, _⟩ => rfl | ⟨1, _⟩ => rfl)

theorem idx_tot (b : Fin 32) (c : Fin 256) (l : Fin 8192) : idx_main_v0 (ix2 b c) l = ix3 b c l :=
  funext fun a => Fin.ext (by match a with | ⟨0, _⟩ => rfl | ⟨1, _⟩ => rfl | ⟨2, _⟩ => rfl)

/-- The reference's last stage is the squeeze-and-excite function. -/
theorem result_eq (x0 : Vec Ideal S32x256x8192 .f32) (x1 : Vec Ideal S16x256 .f32) (x2 : Vec Ideal S256x16 .f32) :
    val_main_v14 (F := Ideal) x0 x1 x2 = scaled x0 x1 x2 := by
  funext i
  obtain ⟨b, c, l, rfl⟩ : ∃ (b : Fin 32) (c : Fin 256) (l : Fin 8192), i = ix3 b c l := ⟨i 0, i 1, i 2, eq_ix3 i⟩
  rw [scaled_apply, ← gates_other]
  rw [val_main_v14_apply, val_main_v13_apply, val_main_v12_apply, idx_gate, val_main_v11_apply, val_main_v10_apply,
    val_main_cst_2_apply, val_main_v9_apply, val_main_v8_apply, val_main_cst_1_apply, val_main_v7_apply,
    val_main_v6_apply, val_main_v5_apply]
  simp only [lidx_out, ridx_out, val_main_v4_apply, val_main_call0_v0_apply, val_main_call0_cst_apply, val_main_v3_apply,
    lidx_hid, ridx_hid, val_main_v2_apply, val_main_v1_apply, val_main_cst_0_apply, val_main_v0_apply, val_main_cst_apply,
    idx_tot, Ideal.ofBits_def, Ideal.mulf_def, Ideal.hostDivf_def, Ideal.addf_def, Ideal.hostUnary_exp_def,
    Ideal.hostNegf_def, Ideal.negf_def, Ideal.maximumf_def, Consts.ofBits_one, Consts.ofBits_8192, Ideal.ofBits_zero_f32]

end Cert.SE.Ref

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.SeBody.lean ====
/-
  The kernel body's arithmetic read at an index, on the extended reals.

  The body loads a batch element's block in eight chunks of 1024 positions.  A chunk, cast to 256 rows, summed
  along each row and cast to a column, holds the chunk total of every channel; the column accumulated over the
  eight chunks from zero and multiplied by the pattern of 1/8192 holds the channel means; the first weight
  matrix times that column, rectified, holds the 16 hidden units; the second weight matrix times those, through
  the logistic, holds the 256 gates; and each chunk times the gate column broadcast along the rows is the chunk of
  the result.  So the gate column is the gates of the block, and a stored chunk is the block scaled by them.
-/
import proofs.«123836_j31860067402274_2_alg».proof.Proof.Gen.KernelIdeal.Skeleton
import proofs.«123836_j31860067402274_2_alg».proof.Proof.SeSpec
import proofs.«123836_j31860067402274_2_alg».proof.Proof.SeConsts
import proofs.«123836_j31860067402274_2_alg».proof.Proof.LibDense
import proofs.«123836_j31860067402274_2_alg».proof.Proof.LibRowBlocks
import Idealize.ShloMosaic.Lib.ValueLayout

noncomputable section

open scoped BigOperators

namespace Cert.SE.Body

open Idealize.ShloMosaic Idealize.ShloMosaic.ValueIdx Cert.KernelIdeal Cert.KernelIdeal.Gen

/-- Channel `r` of a block, as a row of 8192 positions. -/
def rowOf (x0 : Vec Ideal S1x256x8192 .f32) (r : Fin 256) : Fin 8192 → EReal := fun l => x0 (ix3 (0 : Fin 1) r l)

/-- The total of channel `r` of a chunk. -/
def tot (v : FVec Ideal S1x256x1024 .f32) (r : Fin 256) : EReal := ∑ k : Fin 1024, v (ix3 (0 : Fin 1) r k)

/-- A chunk cast to rows, summed along the rows and cast to a column holds the chunk totals. -/
theorem chunkTotal (v : FVec Ideal S1x256x1024 .f32) (h1 : S1x256x1024.ShapeCasts S256x1024)
    (h2 : S256x1024.Reduces [1] S256) (hφ : FKind.Formats .f32) (hacc : (0x00000000#32 : BitVec 32) = 0x00000000#32)
    (h3 : S256.ShapeCasts S256x1) (r : Fin 256) (u : Fin 1) :
    shapeCast S256x1 (multiReduction (F := Ideal) .add [1] S256 (shapeCast S256x1024 v h1) 0x00000000#32 h2 hφ hacc) h3 (ix2 r u)
      = tot v r :=
  (RowBlocks.shapeCast_col_apply _ h3 r u).trans
    ((RowBlocks.rowSum_apply _ h2 hφ hacc r).trans
      (Finset.sum_congr rfl fun k _ => shapeCast_1ab_ab_apply v h1 r k))

/-- The accumulator after the first four chunks. -/
theorem acc4 (v0 v1 v2 v3 : FVec Ideal S1x256x1024 .f32) (r : Fin 256) (u : Fin 1) :
    k0_pay3 (F := Ideal) v0 v1 v2 v3 (ix2 r u) = (((0 + tot v0 r) + tot v1 r) + tot v2 r) + tot v3 r := by
  unfold k0_pay3
  exact congrArg₂ (· + ·) (congrArg₂ (· + ·) (congrArg₂ (· + ·) (congrArg₂ (· + ·) Ideal.ofBits_zero_f32
    (chunkTotal v0 _ _ _ _ _ r u)) (chunkTotal v1 _ _ _ _ _ r u)) (chunkTotal v2 _ _ _ _ _ r u)) (chunkTotal v3 _ _ _ _ _ r u)

/-- The hidden units: the first layer's rows times the means — the accumulator continued over the last four chunks,
    times the pattern of 1/8192 —, rectified. -/
theorem hidden_apply (a : FVec Ideal S256x1 .f32) (v4 v5 v6 v7 : FVec Ideal S1x256x1024 .f32) (w : FVec Ideal S16x256 .f32)
    (h : Fin 16) (u : Fin 1) :
    k0_pay4 (F := Ideal) a v4 v5 v6 v7 w (ix2 h u)
      = max (∑ c : Fin 256, w (ix2 h c) * (((((a (ix2 c u) + tot v4 c) + tot v5 c) + tot v6 c) + tot v7 c) * invLen)) 0 := by
  unfold k0_pay4
  refine congrArg₂ max ?_ Ideal.ofBits_zero_f32
  refine (congrFun (Dense.matmul_zero_eq_mm _ rfl rfl rfl rfl rfl rfl none w _) (ix2 h u)).trans ?_
  refine (Dense.mm_apply _ _ h u).trans (Finset.sum_congr rfl fun c _ => congrArg (w (ix2 h c) * ·) ?_)
  exact congrArg₂ (· * ·) (congrArg₂ (· + ·) (congrArg₂ (· + ·) (congrArg₂ (· + ·) (congrArg₂ (· + ·) rfl
    (chunkTotal v4 _ _ _ _ _ c u)) (chunkTotal v5 _ _ _ _ _ c u)) (chunkTotal v6 _ _ _ _ _ c u)) (chunkTotal v7 _ _ _ _ _ c u))
    Consts.ofBits_inv8192

/-- The gate column: the logistic of the second layer's rows times the hidden units. -/
theorem gate_apply (hd : FVec Ideal S16x1 .f32) (w : FVec Ideal S256x16 .f32) (c : Fin 256) (u : Fin 1) :
    k0_pay5 (F := Ideal) hd w (ix2 c u) = Ideal.logistic (∑ h : Fin 16, w (ix2 c h) * hd (ix2 h u)) := by
  unfold k0_pay5
  refine congrArg Ideal.logistic ?_
  exact (congrFun (Dense.matmul_zero_eq_mm _ rfl rfl rfl rfl rfl rfl none w _) (ix2 c u)).trans (Dense.mm_apply _ _ c u)

/-- A chunk times the gate column broadcast along its rows, with the unit axis put back. -/
theorem scaleChunk (g : FVec Ideal S256x1 .f32) (v : FVec Ideal S1x256x1024 .f32) (h1 : S1x256x1024.ShapeCasts S256x1024)
    (h2 : S256x1.Broadcasts S256x1024) (h3 : S256x1024.ShapeCasts S1x256x1024) (u : Fin 1) (r : Fin 256) (k : Fin 1024) :
    shapeCast S1x256x1024 (mulf (F := Ideal) (shapeCast S256x1024 v h1) (broadcastTo S256x1024 g h2)) h3 (ix3 u r k)
      = v (ix3 (0 : Fin 1) r k) * g (ix2 r (0 : Fin 1)) :=
  (shapeCast_ab_1ab_apply _ h3 u r k).trans
    (congrArg₂ (· * ·) (shapeCast_1ab_ab_apply v h1 r k) (RowBlocks.broadcastTo_col_apply g h2 r k))

/-- The gate column of a block loaded in eight chunks is the gates of the block: the eight chunk totals accumulated
    from zero are the row totals. -/
theorem gateCol (x0 : FVec Ideal S1x256x8192 .f32) (x1 : FVec Ideal S16x256 .f32) (x2 : FVec Ideal S256x16 .f32)
    (v0 v1 v2 v3 v4 v5 v6 v7 : FVec Ideal S1x256x1024 .f32)
    (e0 : ∀ r, tot v0 r = chunk (rowOf x0 r) 0) (e1 : ∀ r, tot v1 r = chunk (rowOf x0 r) 1)
    (e2 : ∀ r, tot v2 r = chunk (rowOf x0 r) 2) (e3 : ∀ r, tot v3 r = chunk (rowOf x0 r) 3)
    (e4 : ∀ r, tot v4 r = chunk (rowOf x0 r) 4) (e5 : ∀ r, tot v5 r = chunk (rowOf x0 r) 5)
    (e6 : ∀ r, tot v6 r = chunk (rowOf x0 r) 6) (e7 : ∀ r, tot v7 r = chunk (rowOf x0 r) 7)
    (c : Fin 256) (u : Fin 1) :
    k0_pay5 (F := Ideal) (k0_pay4 (F := Ideal) (k0_pay3 (F := Ideal) v0 v1 v2 v3) v4 v5 v6 v7 x1) x2 (ix2 c u)
      = gates x1 x2 (rowOf x0) c := by
  refine (gate_apply _ _ c u).trans ?_
  unfold gates gate hidden mean
  refine congrArg Ideal.logistic (Finset.sum_congr rfl fun h _ => congrArg (x2 (ix2 c h) * ·) ?_)
  refine (hidden_apply _ _ _ _ _ _ h u).trans ?_
  refine congrArg (max · 0) (Finset.sum_congr rfl fun c' _ => congrArg (x1 (ix2 h c') * ·) ?_)
  rw [acc4, e0, e1, e2, e3, e4, e5, e6, e7, chunks_total]

/-! Each of the eight stored chunks is its loaded chunk times the gate column. -/

theorem pay1_apply (g : FVec Ideal S256x1 .f32) (v : FVec Ideal S1x256x1024 .f32) (u : Fin 1) (r : Fin 256) (k : Fin 1024) :
    k0_pay1 (F := Ideal) g v (ix3 u r k) = v (ix3 (0 : Fin 1) r k) * g (ix2 r (0 : Fin 1)) := by
  unfold k0_pay1
  exact scaleChunk g v _ _ _ u r k

theorem pay2_apply (g : FVec Ideal S256x1 .f32) (v : FVec Ideal S1x256x1024 .f32) (u : Fin 1) (r : Fin 256) (k : Fin 1024) :
    k0_pay2 (F := Ideal) g v (ix3 u r k) = v (ix3 (0 : Fin 1) r k) * g (ix2 r (0 : Fin 1)) := by
  unfold k0_pay2
  exact scaleChunk g v _ _ _ u r k

theorem pay9_apply (g : FVec Ideal S256x1 .f32) (v : FVec Ideal S1x256x1024 .f32) (u : Fin 1) (r : Fin 256) (k : Fin 1024) :
    k0_pay9 (F := Ideal) g v (ix3 u r k) = v (ix3 (0 : Fin 1) r k) * g (ix2 r (0 : Fin 1)) := by
  unfold k0_pay9
  exact scaleChunk g v _ _ _ u r k

theorem pay10_apply (g : FVec Ideal S256x1 .f32) (v : FVec Ideal S1x256x1024 .f32) (u : Fin 1) (r : Fin 256) (k : Fin 1024) :
    k0_pay10 (F := Ideal) g v (ix3 u r k) = v (ix3 (0 : Fin 1) r k) * g (ix2 r (0 : Fin 1)) := by
  unfold k0_pay10
  exact scaleChunk g v _ _ _ u r k

theorem pay11_apply (g : FVec Ideal S256x1 .f32) (v : FVec Ideal S1x256x1024 .f32) (u : Fin 1) (r : Fin 256) (k : Fin 1024) :
    k0_pay11 (F := Ideal) g v (ix3 u r k) = v (ix3 (0 : Fin 1) r k) * g (ix2 r (0 : Fin 1)) := by
  unfold k0_pay11
  exact scaleChunk g v _ _ _ u r k

theorem pay6_apply (hd : FVec Ideal S16x1 .f32) (w : FVec Ideal S256x16 .f32) (v : FVec Ideal S1x256x1024 .f32) (u : Fin 1) (r : Fin 256)
    (k : Fin 1024) :
    k0_pay6 (F := Ideal) hd w v (ix3 u r k) = v (ix3 (0 : Fin 1) r k) * k0_pay5 (F := Ideal) hd w (ix2 r (0 : Fin 1)) := by
  unfold k0_pay6
  exact scaleChunk (k0_pay5 (F := Ideal) hd w) v _ _ _ u r k

theorem pay7_apply (hd : FVec Ideal S16x1 .f32) (w : FVec Ideal S256x16 .f32) (v : FVec Ideal S1x256x1024 .f32) (u : Fin 1) (r : Fin 256)
    (k : Fin 1024) :
    k0_pay7 (F := Ideal) hd w v (ix3 u r k) = v (ix3 (0 : Fin 1) r k) * k0_pay5 (F := Ideal) hd w (ix2 r (0 : Fin 1)) := by
  unfold k0_pay7
  exact scaleChunk (k0_pay5 (F := Ideal) hd w) v _ _ _ u r k

theorem pay8_apply (hd : FVec Ideal S16x1 .f32) (w : FVec Ideal S256x16 .f32) (v : FVec Ideal S1x256x1024 .f32) (u : Fin 1) (r : Fin 256)
    (k : Fin 1024) :
    k0_pay8 (F := Ideal) hd w v (ix3 u r k) = v (ix3 (0 : Fin 1) r k) * k0_pay5 (F := Ideal) hd w (ix2 r (0 : Fin 1)) := by
  unfold k0_pay8
  exact scaleChunk (k0_pay5 (F := Ideal) hd w) v _ _ _ u r k

end Cert.SE.Body

end
-- ==== Proof.SeBlocks.lean ====
/-
  From the eight stored chunks to the result array.

  The body's eight stores tile the output's staging block, chunk `j` through positions `1024 j` to `1024 j + 1023`
  of every channel, and each stored chunk is the block scaled by its gates read through that rectangle: so the
  staging block holds the scaled block.  Grid point `t` stages batch element `t` of the input and writes back to
  batch element `t` of the result, and the scaled block of a batch element is that batch element of the scaled
  array; the 32 points cover the array.
-/
import proofs.«123836_j31860067402274_2_alg».proof.Proof.Gen.KernelIdeal.Value
import proofs.«123836_j31860067402274_2_alg».proof.Proof.SeBody
import Idealize.ShloMosaic.Lib.Tactic

noncomputable section

open scoped BigOperators

namespace Cert.SE.Blocks

open Idealize.ShloMosaic Idealize.ShloMosaic.TcCoe Idealize.SL.Sem Idealize.ShloMosaic.ValueIdx
open Idealize.ShloMosaic.Pipeline (Dat)
open Cert.KernelIdeal Cert.KernelIdeal.Gen Cert.SE.Body

theorem hz2 : (![0, 0] : Fin 2 → Nat) = fun _ => 0 := funext fun a => by fin_cases a <;> rfl

/-- The total of channel `r` of the chunk loaded from position `o = 1024 j` is chunk `j`'s total of the row. -/
theorem tot_ld (x0 : Vec Ideal S1x256x8192 .f32) (j : Fin 8) (o : ℕ) (ho : o = 1024 * j.val)
    (inb : ∀ a, (![0, 0, o] : Fin 3 → ℕ) a + S1x256x1024.size a ≤ S1x256x8192.size a) (r : Fin 256) :
    tot (View.ld (Val := Elt Ideal) (e' := EltTy.f32) x0 (Rect.unit ![0, 0, o] S1x256x1024.size inb)) r = chunk (rowOf x0 r) j := by
  subst ho
  unfold tot chunk rowOf
  refine Finset.sum_congr rfl fun k _ => congrArg x0 (funext fun a => Fin.ext ?_)
  match a with
  | ⟨0, _⟩ => rfl
  | ⟨1, _⟩ => show 0 + 1 * r.val = r.val; omega
  | ⟨2, _⟩ => show 1024 * j.val + 1 * k.val = 1024 * j.val + k.val; omega

/-- A stored chunk that is its loaded chunk times the gate column is the scaled block read through the store's
    rectangle. -/
theorem piece (x0 : Vec Ideal S1x256x8192 .f32) (x1 : Vec Ideal S16x256 .f32) (x2 : Vec Ideal S256x16 .f32)
    (g : FVec Ideal S256x1 .f32) (hg : ∀ r, g (ix2 r (0 : Fin 1)) = gates x1 x2 (rowOf x0) r) (o : ℕ)
    (inb : ∀ a, (![0, 0, o] : Fin 3 → ℕ) a + S1x256x1024.size a ≤ S1x256x8192.size a)
    (pay : FVec Ideal S1x256x1024 .f32)
    (hpay : ∀ (u : Fin 1) (r : Fin 256) (k : Fin 1024), pay (ix3 u r k)
      = View.ld (Val := Elt Ideal) (e' := EltTy.f32) x0 (Rect.unit ![0, 0, o] S1x256x1024.size inb) (ix3 (0 : Fin 1) r k) * g (ix2 r (0 : Fin 1)))
    (x : (Rect.unit (s := S1x256x8192) ![0, 0, o] S1x256x1024.size inb).shape.Idx) :
    pay x = scaledBlk x0 x1 x2 ((Rect.unit (s := S1x256x8192) ![0, 0, o] S1x256x1024.size inb).emb x) := by
  obtain ⟨u, r, k, rfl⟩ : ∃ (u : Fin 1) (r : Fin 256) (k : Fin 1024), x = ix3 u r k := ⟨x 0, x 1, x 2, eq_ix3 x⟩
  have h2 : o + 1024 ≤ 8192 := inb 2
  have hk : o + k.val < 8192 := by have := k.isLt; omega
  obtain rfl : u = 0 := Subsingleton.elim _ _
  have he : (Rect.unit (s := S1x256x8192) ![0, 0, o] S1x256x1024.size inb).emb (ix3 (0 : Fin 1) r k)
      = ix3 (0 : Fin 1) r ⟨o + k.val, hk⟩ := funext fun a => Fin.ext (by
    match a with
    | ⟨0, _⟩ => rfl
    | ⟨1, _⟩ => show 0 + 1 * r.val = r.val; omega
    | ⟨2, _⟩ => show o + 1 * k.val = o + k.val; omega)
  rw [hpay, hg, he, scaledBlk_apply]
  exact congrArg (· * _) (congrArg x0 he)

/-- The gate column computed from the eight loaded chunks is the gates of the block. -/
theorem gate_ld (x0 : Vec Ideal S1x256x8192 .f32) (x1 : Vec Ideal S16x256 .f32) (x2 : Vec Ideal S256x16 .f32)
    (i0 : ∀ a, (![0, 0, 0] : Fin 3 → ℕ) a + S1x256x1024.size a ≤ S1x256x8192.size a)
    (i1 : ∀ a, (![0, 0, 1024] : Fin 3 → ℕ) a + S1x256x1024.size a ≤ S1x256x8192.size a)
    (i2 : ∀ a, (![0, 0, 2048] : Fin 3 → ℕ) a + S1x256x1024.size a ≤ S1x256x8192.size a)
    (i3 : ∀ a, (![0, 0, 3072] : Fin 3 → ℕ) a + S1x256x1024.size a ≤ S1x256x8192.size a)
    (i4 : ∀ a, (![0, 0, 4096] : Fin 3 → ℕ) a + S1x256x1024.size a ≤ S1x256x8192.size a)
    (i5 : ∀ a, (![0, 0, 5120] : Fin 3 → ℕ) a + S1x256x1024.size a ≤ S1x256x8192.size a)
    (i6 : ∀ a, (![0, 0, 6144] : Fin 3 → ℕ) a + S1x256x1024.size a ≤ S1x256x8192.size a)
    (i7 : ∀ a, (![0, 0, 7168] : Fin 3 → ℕ) a + S1x256x1024.size a ≤ S1x256x8192.size a) (r : Fin 256) :
    k0_pay5 (F := Ideal) (k0_pay4 (F := Ideal) (k0_pay3 (F := Ideal)
        (View.ld x0 (Rect.unit ![0, 0, 0] S1x256x1024.size i0)) (View.ld x0 (Rect.unit ![0, 0, 1024] S1x256x1024.size i1))
        (View.ld x0 (Rect.unit ![0, 0, 2048] S1x256x1024.size i2)) (View.ld x0 (Rect.unit ![0, 0, 3072] S1x256x1024.size i3)))
        (View.ld x0 (Rect.unit ![0, 0, 4096] S1x256x1024.size i4)) (View.ld x0 (Rect.unit ![0, 0, 5120] S1x256x1024.size i5))
        (View.ld x0 (Rect.unit ![0, 0, 6144] S1x256x1024.size i6)) (View.ld x0 (Rect.unit ![0, 0, 7168] S1x256x1024.size i7)) x1) x2
        (ix2 r (0 : Fin 1))
      = gates x1 x2 (rowOf x0) r :=
  gateCol x0 x1 x2 _ _ _ _ _ _ _ _ (tot_ld x0 0 0 rfl i0) (tot_ld x0 1 1024 rfl i1) (tot_ld x0 2 2048 rfl i2)
    (tot_ld x0 3 3072 rfl i3) (tot_ld x0 4 4096 rfl i4) (tot_ld x0 5 5120 rfl i5) (tot_ld x0 6 6144 rfl i6)
    (tot_ld x0 7 7168 rfl i7) r 0

/-- Every piece the body's run leaves in the output's staging block is the scaled block read through the piece's
    rectangle. -/
theorem pieces_ok (c : Dev nD) (i : grid0.Coords) (a1 : Memref sig .tc .vmem S1x256x8192 .f32) (h1 : a1.IsWhole)
    (a2 : Memref sig .tc .vmem S16x256 .f32) (h2 : a2.IsWhole) (a3 : Memref sig .tc .vmem S256x16 .f32) (h3 : a3.IsWhole)
    (a4 : Memref sig .tc .vmem S1x256x8192 .f32) (h4 : a4.IsWhole)
    (x0 : Vec Ideal S1x256x8192 .f32) (x1 : Vec Ideal S16x256 .f32) (x2 : Vec Ideal S256x16 .f32) :
    ∀ p ∈ (kernelRun0_A (F := Ideal) c i a1 h1 a2 h2 a3 h3 a4 h4 x0 x1 x2).1, ∀ x : p.1.shape.Idx,
      p.2 x = scaledBlk x0 x1 x2 (p.1.emb x) := by
  unfold kernelRun0_A
  dsimp only
  sl_unfold_words
  simp only [View.readAt_eq_ld, h1.read_unread, h2.read_unread, h3.read_unread, View.ld_unit_zero (S := S16x256) hz2,
    View.ld_unit_zero (S := S256x16) hz2]
  intro p hp
  simp only [List.mem_cons, List.not_mem_nil, or_false] at hp
  rcases hp with rfl | rfl | rfl | rfl | rfl | rfl | rfl | rfl
  · exact piece x0 x1 x2 _ (gate_ld x0 x1 x2 _ _ _ _ _ _ _ _) 7168 _ _ (fun u r k => pay2_apply _ _ u r k)
  · exact piece x0 x1 x2 _ (gate_ld x0 x1 x2 _ _ _ _ _ _ _ _) 6144 _ _ (fun u r k => pay1_apply _ _ u r k)
  · exact piece x0 x1 x2 _ (gate_ld x0 x1 x2 _ _ _ _ _ _ _ _) 5120 _ _ (fun u r k => pay11_apply _ _ u r k)
  · exact piece x0 x1 x2 _ (gate_ld x0 x1 x2 _ _ _ _ _ _ _ _) 4096 _ _ (fun u r k => pay10_apply _ _ u r k)
  · exact piece x0 x1 x2 _ (gate_ld x0 x1 x2 _ _ _ _ _ _ _ _) 3072 _ _ (fun u r k => pay9_apply _ _ u r k)
  · exact piece x0 x1 x2 _ (gate_ld x0 x1 x2 _ _ _ _ _ _ _ _) 2048 _ _ (fun u r k => pay8_apply _ _ _ u r k)
  · exact piece x0 x1 x2 _ (gate_ld x0 x1 x2 _ _ _ _ _ _ _ _) 1024 _ _ (fun u r k => pay7_apply _ _ _ u r k)
  · exact piece x0 x1 x2 _ (gate_ld x0 x1 x2 _ _ _ _ _ _ _ _) 0 _ _ (fun u r k => pay6_apply _ _ _ u r k)

/-- What the body leaves in the output's staging block: the block scaled by its gates. -/
theorem out_eq (c : Dev nD) (i : grid0.Coords) (a1 : Memref sig .tc .vmem S1x256x8192 .f32) (h1 : a1.IsWhole)
    (a2 : Memref sig .tc .vmem S16x256 .f32) (h2 : a2.IsWhole) (a3 : Memref sig .tc .vmem S256x16 .f32) (h3 : a3.IsWhole)
    (a4 : Memref sig .tc .vmem S1x256x8192 .f32) (h4 : a4.IsWhole)
    (x0 : Vec Ideal S1x256x8192 .f32) (x1 : Vec Ideal S16x256 .f32) (x2 : Vec Ideal S256x16 .f32) :
    out0_A_3 (F := Ideal) c i a1 h1 a2 h2 a3 h3 a4 h4 x0 x1 x2 = scaledBlk x0 x1 x2 := by
  unfold out0_A_3
  rw [View.read_writes_eq_canon _ _ _ (cover0_A_3 c i a1 h1 a2 h2 a3 h3 a4 h4 x0 x1 x2)]
  funext y
  exact View.canon_apply_of_pieces (scaledBlk x0 x1 x2) _ (pieces_ok c i a1 h1 a2 h2 a3 h3 a4 h4 x0 x1 x2) y
    (cover0_A_3 c i a1 h1 a2 h2 a3 h3 a4 h4 x0 x1 x2 y)

end Cert.SE.Blocks

end
-- ==== Proof.SeArray.lean ====
/-
  The result array after the run.

  Grid point `t` of the 32 stages batch element `t` of the input whole, the two weight matrices whole, and writes
  its staging block back to batch element `t` of the result.  What it writes back is the scaled block of that batch
  element, which is that batch element of the scaled array; every index of the array lies in the block of the point
  named by its first coordinate.  So the array ends holding the squeeze-and-excite function of the arguments.
-/
import proofs.«123836_j31860067402274_2_alg».proof.Proof.SeBlocks

noncomputable section

open scoped BigOperators

namespace Cert.SE.Array

open Idealize.ShloMosaic Idealize.ShloMosaic.TcCoe Idealize.SL.Sem Idealize.ShloMosaic.ValueIdx
open Idealize.ShloMosaic.Pipeline (Dat)
open Cert.KernelIdeal Cert.KernelIdeal.Gen Cert.SE.Body Cert.SE.Blocks

variable (m : (ℓ : Loc nD τ sig) → Buf (Elt Ideal) ℓ) (ρ : Dev nD → PrngReg)

/-- The printed index maps over the grid: the input's and the result's block index is `(t, 0, 0)`, the weights'
    `(0, 0)`. -/
theorem idx_facts : ∀ t : Fin cfg0.N, win0_0.index t (0 : Fin 3) = t.val ∧ win0_0.index t (1 : Fin 3) = 0
    ∧ win0_0.index t (2 : Fin 3) = 0 ∧ win0_3.index t (0 : Fin 3) = t.val ∧ win0_3.index t (1 : Fin 3) = 0
    ∧ win0_3.index t (2 : Fin 3) = 0 ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The input's block at point `t` is batch element `t` of the input. -/
theorem iblk0_eq (c : Dev nD) (t : Fin cfg0.N) (b : Fin 32) (hb : b.val = t.val) :
    (iblk m c 0 t : Vec Ideal S1x256x8192 .f32) = slab (V m c main_arg0) b := by
  obtain ⟨e0, e1, e2, -⟩ := idx_facts t
  funext y
  unfold iblk slab
  rw [View.read_apply]
  refine congrArg (V m c main_arg0) (funext fun a => Fin.ext ?_)
  have hy : (y 0).val < 1 := (y 0).isLt
  match a with
  | ⟨0, _⟩ => show win0_0.index t (0 : Fin 3) * 1 + 1 * (y 0).val = b.val; omega
  | ⟨1, _⟩ => show win0_0.index t (1 : Fin 3) * 256 + 1 * (y 1).val = (y 1).val; omega
  | ⟨2, _⟩ => show win0_0.index t (2 : Fin 3) * 8192 + 1 * (y 2).val = (y 2).val; omega

/-- The first weight matrix's block is the matrix. -/
theorem iblk1_eq (c : Dev nD) (t : Fin cfg0.N) : (iblk m c 1 t : Vec Ideal S16x256 .f32) = V m c main_arg1 := by
  obtain ⟨-, -, -, -, -, -, e0, e1, -⟩ := idx_facts t
  funext y
  unfold iblk
  rw [View.read_apply]
  refine congrArg (V m c main_arg1) (funext fun a => Fin.ext ?_)
  match a with
  | ⟨0, _⟩ => show win0_1.index t (0 : Fin 2) * 16 + 1 * (y 0).val = (y 0).val; omega
  | ⟨1, _⟩ => show win0_1.index t (1 : Fin 2) * 256 + 1 * (y 1).val = (y 1).val; omega

/-- The second weight matrix's block is the matrix. -/
theorem iblk2_eq (c : Dev nD) (t : Fin cfg0.N) : (iblk m c 2 t : Vec Ideal S256x16 .f32) = V m c main_arg2 := by
  obtain ⟨-, -, -, -, -, -, -, -, e0, e1⟩ := idx_facts t
  funext y
  unfold iblk
  rw [View.read_apply]
  refine congrArg (V m c main_arg2) (funext fun a => Fin.ext ?_)
  match a with
  | ⟨0, _⟩ => show win0_2.index t (0 : Fin 2) * 256 + 1 * (y 0).val = (y 0).val; omega
  | ⟨1, _⟩ => show win0_2.index t (1 : Fin 2) * 16 + 1 * (y 1).val = (y 1).val; omega

/-- The result as contents of the result array. -/
abbrev result (c : Dev nD) : Buf (Elt Ideal) ((c : Thread nD τ).loc main_v0) :=
  scaled (V m c main_arg0) (V m c main_arg1) (V m c main_arg2)

/-- What point `t` writes back is block `t` of the result. -/
theorem flushed_eq (c : Dev nD) (t : Fin cfg0.N) :
    (dats m 0 c).flushed 3 t = ((cfg0.win 3).blk t).view.read (Elt Ideal) (result m c) := by
  have hN : grid0.N = 32 := N_0
  have hb : t.val < 32 := by have h : t.val < grid0.N := t.isLt; omega
  rw [Value.flushed3_A, out_eq, iblk0_eq m c t ⟨t.val, hb⟩ rfl, iblk1_eq, iblk2_eq]
  obtain ⟨-, -, -, e0, e1, e2, -⟩ := idx_facts t
  funext y
  show scaledBlk (slab (V m c main_arg0) ⟨t.val, hb⟩) (V m c main_arg1) (V m c main_arg2) y
    = scaled (V m c main_arg0) (V m c main_arg1) (V m c main_arg2) (((cfg0.win 3).blk t).view.emb y)
  rw [scaledBlk_slab]
  refine congrArg (scaled (V m c main_arg0) (V m c main_arg1) (V m c main_arg2)) (funext fun a => Fin.ext ?_)
  have hy : (y 0).val < 1 := (y 0).isLt
  match a with
  | ⟨0, _⟩ => show t.val = win0_3.index t (0 : Fin 3) * 1 + 1 * (y 0).val; omega
  | ⟨1, _⟩ => show (y 1).val = win0_3.index t (1 : Fin 3) * 256 + 1 * (y 1).val; omega
  | ⟨2, _⟩ => show (y 2).val = win0_3.index t (2 : Fin 3) * 8192 + 1 * (y 2).val; omega

/-- An index of the array is in point `t`'s block iff each coordinate is in the block's range on its axis. -/
theorem mem_blk (t : Fin cfg0.N) (i : S32x256x8192.Idx) :
    i ∈ ((cfg0.win 3).blk t).view.set ↔ ∀ a : Fin 3, win0_3.index t a * S1x256x8192.size a ≤ (i a).val
      ∧ (i a).val < win0_3.index t a * S1x256x8192.size a + S1x256x8192.size a := by
  show i ∈ ((View.whole main_v0).slice (win0_3.rect t)).set ↔ _
  rw [View.set_slice_whole, Rect.mem_set_unit]
  exact Iff.rfl

/-- Every index of the array lies in the block of the point named by its first coordinate. -/
theorem cover (i : S32x256x8192.Idx) :
    ∃ t : Fin cfg0.N, (cfg0.win 3).flush t = true ∧ i ∈ ((cfg0.win 3).blk t).view.set := by
  have hN : grid0.N = 32 := N_0
  have h0 : (i 0).val < 32 := (i 0).isLt
  have h1 : (i 1).val < 256 := (i 1).isLt
  have h2 : (i 2).val < 8192 := (i 2).isLt
  have ht : (i 0).val < cfg0.N := by show (i 0).val < grid0.N; omega
  refine ⟨⟨(i 0).val, ht⟩, flush0_3 _, ?_⟩
  obtain ⟨-, -, -, e0, e1, e2, -⟩ := idx_facts ⟨(i 0).val, ht⟩
  rw [mem_blk]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0]; show (i 0).val * 1 ≤ (i 0).val ∧ (i 0).val < (i 0).val * 1 + 1; omega
  | ⟨1, _⟩ =>
    show win0_3.index ⟨(i 0).val, ht⟩ (1 : Fin 3) * 256 ≤ (i 1).val ∧ (i 1).val < win0_3.index ⟨(i 0).val, ht⟩ (1 : Fin 3) * 256 + 256
    rw [e1]; omega
  | ⟨2, _⟩ =>
    show win0_3.index ⟨(i 0).val, ht⟩ (2 : Fin 3) * 8192 ≤ (i 2).val ∧ (i 2).val < win0_3.index ⟨(i 0).val, ht⟩ (2 : Fin 3) * 8192 + 8192
    rw [e2]; omega

/-- The result array after the run. -/
theorem final (c : Dev nD) : (dats m 0 c).arrAt 3 cfg0.N = result m c :=
  (dats m 0 c).arrAt_eq_of_cover 3 (result m c) (fun t _ => flushed_eq m c t) cover

/-- The run, read: the result array at the squeeze-and-excite function of the arguments as launched, the
    arguments unchanged. -/
theorem run : θ_run defs (onTc (τ := τ) (main (F := Ideal))) ⟨m, fun _ => 0, ρ⟩ fun r => ∀ c : Dev nD,
      r.2.mem ((c : Thread nD τ).loc main_v0)
        = scaled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.SE.Array

end
-- ==== Proof.lean ====
/-
  The kernel and its reference compute one function on the extended reals.

  The kernel processes one batch element per grid point: it totals each of the 256 channels of the element's
  block in eight chunks, scales the totals by 1/8192 to the channel means, passes them through a rectified layer of
  16 units and a logistic layer of 256 gates, and writes back every entry of a channel times the channel's gate.
  The reference takes the means of the whole array as totals divided by 8192, applies the two layers as
  contractions against the transposed weights with the logistic spelt `1 / (1 + exp (−z))`, and multiplies.  Both
  are the squeeze-and-excite function of the three arguments (Proof/SeSpec.lean): no finiteness is used, since sums
  and products on the extended reals commute and regroup freely and a division by 8192 is the product with 1/8192
  there.  The kernel's run is read in Proof/SeBody.lean (the body's arithmetic), Proof/SeBlocks.lean (its eight
  stores) and Proof/SeArray.lean (the result array); the reference's in Proof/SeRef.lean.  The three frames are the
  generated ones, the reference's being its run with the result dropped; the idealization rewrote nothing.
-/
import proofs.«123836_j31860067402274_2_alg».proof.Defs
import proofs.«123836_j31860067402274_2_alg».proof.Proof.Gen.Kernel
import proofs.«123836_j31860067402274_2_alg».proof.Proof.Gen.Kernel.Skeleton
import proofs.«123836_j31860067402274_2_alg».proof.Proof.Gen.Kernel.Launch
import proofs.«123836_j31860067402274_2_alg».proof.Proof.Gen.Kernel.Points
import proofs.«123836_j31860067402274_2_alg».proof.Proof.Gen.Kernel.Frame
import proofs.«123836_j31860067402274_2_alg».proof.Proof.Gen.KernelIdeal
import proofs.«123836_j31860067402274_2_alg».proof.Proof.Gen.KernelIdeal.Skeleton
import proofs.«123836_j31860067402274_2_alg».proof.Proof.Gen.KernelIdeal.Launch
import proofs.«123836_j31860067402274_2_alg».proof.Proof.Gen.KernelIdeal.Points
import proofs.«123836_j31860067402274_2_alg».proof.Proof.Gen.KernelIdeal.Frame
import proofs.«123836_j31860067402274_2_alg».proof.Proof.Gen.ReferenceIdeal
import proofs.«123836_j31860067402274_2_alg».proof.Proof.Gen.Pre_finite_inputs
import proofs.«123836_j31860067402274_2_alg».proof.Proof.Gen.KernelIdeal.Value
import proofs.«123836_j31860067402274_2_alg».proof.Proof.Gen.ReferenceIdeal.Run
import proofs.«123836_j31860067402274_2_alg».proof.Proof.Gen.ReferenceIdeal.Read
import proofs.«123836_j31860067402274_2_alg».proof.Proof.SeRef
import proofs.«123836_j31860067402274_2_alg».proof.Proof.SeArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the squeeze-and-excite function of arguments that agree. -/
theorem algebraic : Cert.algebraic_KernelIdeal_ReferenceIdeal := by
  intro m ρ m' ρ' _ hagree
  refine ⟨_, Cert.SE.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.SE.Ref.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
